-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S3 : Shape := ⟨1, ![3]⟩
abbrev S96x262144 : Shape := ⟨2, ![96, 262144]⟩
abbrev S96x1 : Shape := ⟨2, ![96, 1]⟩
abbrev S48x8192 : Shape := ⟨2, ![48, 8192]⟩
abbrev S48x1 : Shape := ⟨2, ![48, 1]⟩
abbrev S48 : Shape := ⟨1, ![48]⟩
abbrev S96x256 : Shape := ⟨2, ![96, 256]⟩
abbrev S48x2048 : Shape := ⟨2, ![48, 2048]⟩
abbrev S48x256 : Shape := ⟨2, ![48, 256]⟩
abbrev S1x1x16 : Shape := ⟨3, ![1, 1, 16]⟩
abbrev S48x16x16 : Shape := ⟨3, ![48, 16, 16]⟩
abbrev S48x128 : Shape := ⟨2, ![48, 128]⟩
abbrev S48x128x1 : Shape := ⟨3, ![48, 128, 1]⟩
abbrev S48x128x16 : Shape := ⟨3, ![48, 128, 16]⟩
abbrev S96x255 : Shape := ⟨2, ![96, 255]⟩
abbrev S32x3x255 : Shape := ⟨3, ![32, 3, 255]⟩
abbrev S_ : Shape := ⟨0, ![]⟩
abbrev S3x1 : Shape := ⟨2, ![3, 1]⟩

abbrev nBuf : Space → Nat
  | .hbm => 24
  | .vmem => 12
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S3, .i32⟩
  | .hbm, ⟨3, _⟩ => ⟨S96x262144, .f32⟩
  | .hbm, ⟨4, _⟩ => ⟨S96x1, .f32⟩
  | .hbm, ⟨5, _⟩ => ⟨S96x1, .f32⟩
  | .hbm, ⟨6, _⟩ => ⟨S96x256, .f32⟩
  | .hbm, ⟨7, _⟩ => ⟨S96x255, .f32⟩
  | .hbm, ⟨8, _⟩ => ⟨S32x3x255, .f32⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S3, .i32⟩
  | .hbm, ⟨16, _⟩ => ⟨S3x1, .i32⟩
  | .hbm, ⟨17, _⟩ => ⟨S32x3x255, .f32⟩
  | .hbm, ⟨18, _⟩ => ⟨S32x3x255, .f32⟩
  | .hbm, ⟨19, _⟩ => ⟨S32x3x255, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S48x8192, .f32⟩
  | .local _ .vmem, ⟨1, _⟩ => ⟨S48x8192, .f32⟩
  | .local _ .vmem, ⟨2, _⟩ => ⟨S48x1, .f32⟩
  | .local _ .vmem, ⟨3, _⟩ => ⟨S48x1, .f32⟩
  | .local _ .vmem, ⟨4, _⟩ => ⟨S48x1, .f32⟩
  | .local _ .vmem, ⟨5, _⟩ => ⟨S48x1, .f32⟩
  | .local _ .vmem, ⟨6, _⟩ => ⟨S48x2048, .f32⟩
  | .local _ .vmem, ⟨7, _⟩ => ⟨S48x2048, .f32⟩
  | .local _ .vmem, ⟨8, _⟩ => ⟨S48x1, .f32⟩
  | .local _ .vmem, ⟨9, _⟩ => ⟨S48x1, .f32⟩
  | .local _ .vmem, ⟨10, _⟩ => ⟨S48x256, .f32⟩
  | .local _ .vmem, ⟨11, _⟩ => ⟨S48x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S48x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S48x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 128], ![false, false]⟩

@[reducible] def k1_t1_loop : Scf.Loop 32 :=
  let c0_i32_5 : BitVec 32 := 0#32
  let c16_i32 : BitVec 32 := 16#32
  let v14 : BitVec 32 := Scalar.addi c0_i32_5 c16_i32
  let c1_i32 : BitVec 32 := 1#32
  ⟨c0_i32_5, v14, c1_i32⟩
def k1_mult1 (k1_t1 : Fin k1_t1_loop.trips) : BitVec 32 :=
  let c0_i32_5 : BitVec 32 := 0#32
  let c1_i32 : BitVec 32 := 1#32
  let arg6 : BitVec 32 := Scf.iv c0_i32_5 c1_i32 k1_t1
  let c128_i32 : BitVec 32 := 128#32
  let v21 : BitVec 32 := Scalar.muli arg6 c128_i32
  v21
def k1_off1 (k1_t1 : Fin k1_t1_loop.trips) : Fin 2 → Nat :=
  let c0_11 : Index := 0#32
  let c0_i32_5 : BitVec 32 := 0#32
  let c1_i32 : BitVec 32 := 1#32
  let arg6 : BitVec 32 := Scf.iv c0_i32_5 c1_i32 k1_t1
  let c128_i32 : BitVec 32 := 128#32
  let v21 : BitVec 32 := Scalar.muli arg6 c128_i32
  let v22 : BitVec 32 := v21
  let v23 : Index := Scalar.indexCast v22
  ![0, v23.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S48x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S48x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S48x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S48x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S32x3x512x512_S96x262144 : S32x3x512x512.ShapeCasts S96x262144
  inb_S48x1_S48x1_0_0 : ∀ a, (![0, 0] : Fin 2 → Nat) a + S48x1.size a ≤ S48x1.size a
  h_S48x1 : 0 < S48x1.numel
  inb_S48x8192_S48x8192_0_0 : ∀ a, (![0, 0] : Fin 2 → Nat) a + S48x8192.size a ≤ S48x8192.size a
  h_S48x8192 : 0 < S48x8192.numel
  shapeCasts_S48x8192_S48x8192 : S48x8192.ShapeCasts S48x8192
  shapeCasts_S48x1_S48x1 : S48x1.ShapeCasts S48x1
  reduces_S48x8192_S48 : S48x8192.Reduces [1] S48
  shapeCasts_S48_S48x1 : S48.ShapeCasts S48x1
  inb_S48x256_S48x256_0_0 : ∀ a, (![0, 0] : Fin 2 → Nat) a + S48x256.size a ≤ S48x256.size a
  h_S48x256 : 0 < S48x256.numel
  iota_S1x1x16_d2_w32 : S1x1x16.Iotas .tc 32 [2]
  h_S48x128 : 0 < S48x128.numel
  shapeCasts_S48x128_S48x128 : S48x128.ShapeCasts S48x128
  broadcasts_S48x1_S48x128 : S48x1.Broadcasts S48x128
  shapeCasts_S48x128_S48x128x1 : S48x128.ShapeCasts S48x128x1
  broadcasts_S48x128x1_S48x128x16 : S48x128x1.Broadcasts S48x128x16
  broadcasts_S1x1x16_S48x128x16 : S1x1x16.Broadcasts S48x128x16
  natLt_1_32 : 1 < 32
  bitsLt_bf16_f32 : FTy.bits .bf16 < FTy.bits .f32
  shapeCasts_S48x256_S48x256 : S48x256.ShapeCasts S48x256
  shapeCasts_S48x16x16_S48x256 : S48x16x16.ShapeCasts S48x256
  slices_S96x256_S96x255_0_0 : S96x256.Slices ![0, 0] S96x255
  shapeCasts_S96x255_S32x3x255 : S96x255.ShapeCasts S32x3x255
  bcast_S_S3 : S_.BroadcastsInDim S3 (![] : Fin 0 → Fin S3.rank)
  bcast_S3_S3x1_0 : S3.BroadcastsInDim S3x1 (![0] : Fin 1 → Fin S3x1.rank)
  reducesTo_S32x3x255_S_d0_1_2 : S32x3x255.ReducesTo [0, 1, 2] S_
  h_S_ : 0 < S_.numel
  dot_S48x128x16_S48x128x16_S48x16x16_1_1_2_2_0_0_wf : DotDims.WF S48x128x16 S48x128x16 S48x16x16 [1] [1] [2] [2] [0] [0]
  gather_S32x3x255_S3x1_S32x3x255_02_1_n_n_1_1_321255_wf : GatherDims.WF S32x3x255 S3x1 S32x3x255 [0, 2] [1] [] [1] [] 1 ![32, 1, 255]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x8192.size a ≤ S96x262144.size a
  hwx0_0 : ∀ i : grid0.Coords, EltTy.bits .f32 = 32 ∨ (Rect.block (s := S96x262144) S48x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x1.size a ≤ S96x1.size a
  hwx0_1 : ∀ i : grid0.Coords, EltTy.bits .f32 = 32 ∨ (Rect.block (s := S96x1) S48x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S48x1.size a ≤ S96x1.size a
  hwx0_2 : ∀ i : grid0.Coords, EltTy.bits .f32 = 32 ∨ (Rect.block (s := S96x1) S48x1.size (cc0_transform_2 i) (hinb0_2 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S48x128.size a ≤ S48x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S48x2048.size a ≤ S96x262144.size a
  hwx1_0 : ∀ i : grid1.Coords, EltTy.bits .f32 = 32 ∨ (Rect.block (s := S96x262144) S48x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x1.size a ≤ S96x1.size a
  hwx1_1 : ∀ i : grid1.Coords, EltTy.bits .f32 = 32 ∨ (Rect.block (s := S96x1) S48x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x1.size a ≤ S96x1.size a
  hwx1_2 : ∀ i : grid1.Coords, EltTy.bits .f32 = 32 ∨ (Rect.block (s := S96x1) S48x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S48x256.size a ≤ S96x256.size a
  hwx1_3 : ∀ i : grid1.Coords, EltTy.bits .f32 = 32 ∨ (Rect.block (s := S96x256) S48x256.size (cc1_transform_3 i) (hinb1_3 i)).WholeWords (EltTy.packing .f32)

variable [Facts₀]

def dot_S48x128x16_S48x128x16_S48x16x16_1_1_2_2_0_0 : DotDims S48x128x16 S48x128x16 S48x16x16 where
  lhsContracting := [1]
  rhsContracting := [1]
  lhsNonContracting := [2]
  rhsNonContracting := [2]
  lhsBatch := [0]
  rhsBatch := [0]
  wf := dot_S48x128x16_S48x128x16_S48x16x16_1_1_2_2_0_0_wf
def gather_S32x3x255_S3x1_S32x3x255_02_1_n_n_1_1_321255 : GatherDims S32x3x255 S3x1 S32x3x255 where
  offsetDims := [0, 2]
  collapsedSliceDims := [1]
  operandBatchingDims := []
  startIndicesBatchingDims := []
  startIndexMap := [1]
  indexVectorDim := 1
  sliceSizes := ![32, 1, 255]
  wf := gather_S32x3x255_S3x1_S32x3x255_02_1_n_n_1_1_321255_wf

abbrev win0_0 : Pipeline.Window sig grid0 :=
  Pipeline.Window.ofSpec (Memref.whole main_v0) S48x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S48x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S48x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S48x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S48x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S48x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S48x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x3x512x512 : Shape := ⟨4, ![32, 3, 512, 512]⟩
abbrev S3 : Shape := ⟨1, ![3]⟩
abbrev S_ : Shape := ⟨0, ![]⟩
abbrev S32x3x262144 : Shape := ⟨3, ![32, 3, 262144]⟩
abbrev S32x3 : Shape := ⟨2, ![32, 3]⟩
abbrev S32x3x1 : Shape := ⟨3, ![32, 3, 1]⟩
abbrev S32 : Shape := ⟨1, ![32]⟩
abbrev S32x1x1 : Shape := ⟨3, ![32, 1, 1]⟩
abbrev S1x3x1 : Shape := ⟨3, ![1, 3, 1]⟩
abbrev S32x3x255 : Shape := ⟨3, ![32, 3, 255]⟩
abbrev S32x3x262144x1 : Shape := ⟨4, ![32, 3, 262144, 1]⟩
abbrev S32x3x262144x3 : Shape := ⟨4, ![32, 3, 262144, 3]⟩
abbrev S3x1 : Shape := ⟨2, ![3, 1]⟩

abbrev nBuf : Space → Nat
  | .hbm => 87
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S3, .i32⟩
  | .hbm, ⟨3, _⟩ => ⟨S_, .f32⟩
  | .hbm, ⟨4, _⟩ => ⟨S32x3x512x512, .f32⟩
  | .hbm, ⟨5, _⟩ => ⟨S32x3x512x512, .f32⟩
  | .hbm, ⟨6, _⟩ => ⟨S32x3x512x512, .f32⟩
  | .hbm, ⟨7, _⟩ => ⟨S32x3x262144, .f32⟩
  | .hbm, ⟨8, _⟩ => ⟨S_, .f32⟩
  | .hbm, ⟨9, _⟩ => ⟨S32x3, .f32⟩
  | .hbm, ⟨10, _⟩ => ⟨S32x3x1, .f32⟩
  | .hbm, ⟨11, _⟩ => ⟨S_, .f32⟩
  | .hbm, ⟨12, _⟩ => ⟨S32x3, .f32⟩
  | .hbm, ⟨13, _⟩ => ⟨S32x3x1, .f32⟩
  | .hbm, ⟨14, _⟩ => ⟨S32x3x1, .i1⟩
  | .hbm, ⟨15, _⟩ => ⟨S32x3x1, .f32⟩
  | .hbm, ⟨16, _⟩ => ⟨S_, .f32⟩
  | .hbm, ⟨17, _⟩ => ⟨S32x3x1, .f32⟩
  | .hbm, ⟨18, _⟩ => ⟨S32x3x1, .f32⟩
  | .hbm, ⟨19, _⟩ => ⟨S32x3x262144, .f32⟩
  | .hbm, ⟨20, _⟩ => ⟨S32x3x262144, .f32⟩
  | .hbm, ⟨21, _⟩ => ⟨S32x3x262144, .f32⟩
  | .hbm, ⟨22, _⟩ => ⟨S32x3x262144, .f32⟩
  | .hbm, ⟨23, _⟩ => ⟨S_, .f32⟩
  | .hbm, ⟨24, _⟩ => ⟨S32x3x262144, .f32⟩
  | .hbm, ⟨25, _⟩ => ⟨S32x3x262144, .f32⟩
  | .hbm, ⟨26, _⟩ => ⟨S32x3x262144, .f32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S32x3x262144, .f32⟩
  | .hbm, ⟨31, _⟩ => ⟨S32x3x262144, .f32⟩
  | .hbm, ⟨32, _⟩ => ⟨S_, .f32⟩
  | .hbm, ⟨33, _⟩ => ⟨S32x3x262144, .f32⟩
  | .hbm, ⟨34, _⟩ => ⟨S32x3x262144, .f32⟩
  | .hbm, ⟨35, _⟩ => ⟨S32x3x262144, .i32⟩
  | .hbm, ⟨36, _⟩ => ⟨S32, .i32⟩
  | .hbm, ⟨37, _⟩ => ⟨S32x1x1, .i32⟩
  | .hbm, ⟨38, _⟩ => ⟨S3, .i32⟩
  | .hbm, ⟨39, _⟩ => ⟨S1x3x1, .i32⟩
  | .hbm, ⟨40, _⟩ => ⟨S_, .f32⟩
  | .hbm, ⟨41, _⟩ => ⟨S32x3x255, .f32⟩
  | .hbm, ⟨42, _⟩ => ⟨S_, .i32⟩
  | .hbm, ⟨43, _⟩ => ⟨S32x1x1, .i32⟩
  | .hbm, ⟨44, _⟩ => ⟨S32x1x1, .i1⟩
  | .hbm, ⟨45, _⟩ => ⟨S_, .i32⟩
  | .hbm, ⟨46, _⟩ => ⟨S32x1x1, .i32⟩
  | .hbm, ⟨47, _⟩ => ⟨S32x1x1, .i32⟩
  | .hbm, ⟨48, _⟩ => ⟨S32x1x1, .i32⟩
  | .hbm, ⟨49, _⟩ => ⟨S_, .i32⟩
  | .hbm, ⟨50, _⟩ => ⟨S1x3x1, .i32⟩
  | .hbm, ⟨51, _⟩ => ⟨S1x3x1, .i1⟩
  | .hbm, ⟨52, _⟩ => ⟨S_, .i32⟩
  | .hbm, ⟨53, _⟩ => ⟨S1x3x1, .i32⟩
  | .hbm, ⟨54, _⟩ => ⟨S1x3x1, .i32⟩
  | .hbm, ⟨55, _⟩ => ⟨S1x3x1, .i32⟩
  | .hbm, ⟨56, _⟩ => ⟨S_, .i32⟩
  | .hbm, ⟨57, _⟩ => ⟨S32x3x262144, .i32⟩
  | .hbm, ⟨58, _⟩ => ⟨S32x3x262144, .i1⟩
  | .hbm, ⟨59, _⟩ => ⟨S_, .i32⟩
  | .hbm, ⟨60, _⟩ => ⟨S32x3x262144, .i32⟩
  | .hbm, ⟨61, _⟩ => ⟨S32x3x262144, .i32⟩
  | .hbm, ⟨62, _⟩ => ⟨S32x3x262144, .i32⟩
  | .hbm, ⟨63, _⟩ => ⟨S32x3x262144, .i32⟩
  | .hbm, ⟨64, _⟩ => ⟨S32x3x262144, .i32⟩
  | .hbm, ⟨65, _⟩ => ⟨S32x3x262144x1, .i32⟩
  | .hbm, ⟨66, _⟩ => ⟨S32x3x262144x1, .i32⟩
  | .hbm, ⟨67, _⟩ => ⟨S32x3x262144x1, .i32⟩
  | .hbm, ⟨68, _⟩ => ⟨S32x3x262144x3, .i32⟩
  | .hbm, ⟨69, _⟩ => ⟨S_, .f32⟩
  | .hbm, ⟨70, _⟩ => ⟨S32x3x262144, .f32⟩
  | .hbm, ⟨71, _⟩ => ⟨S32x3x255, .f32⟩
  | .hbm, ⟨72, _⟩ => ⟨S_, .i32⟩
  | .hbm, ⟨73, _⟩ => ⟨S3, .i32⟩
  | .hbm, ⟨74, _⟩ => ⟨S3, .i1⟩
  | .hbm, ⟨75, _⟩ => ⟨S_, .i32⟩
  | .hbm, ⟨76, _⟩ => ⟨S3, .i32⟩
  | .hbm, ⟨77, _⟩ => ⟨S3, .i32⟩
  | .hbm, ⟨78, _⟩ => ⟨S3, .i32⟩
  | .hbm, ⟨79, _⟩ => ⟨S3x1, .i32⟩
  | .hbm, ⟨80, _⟩ => ⟨S32x3x255, .f32⟩
  | .hbm, ⟨81, _⟩ => ⟨S32x3x255, .f32⟩
  | .hbm, ⟨82, _⟩ => ⟨S32x3x255, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_c_5 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_11 : Ref sig .tc := ⟨.hbm, 56, rfl⟩
abbrev main_v36 : Ref sig .tc := ⟨.hbm, 57, rfl⟩
abbrev main_v37 : Ref sig .tc := ⟨.hbm, 58, rfl⟩
abbrev main_c_12 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  shapeCasts_S32x3x512x512_S32x3x262144 : S32x3x512x512.ShapeCasts S32x3x262144
  reducesTo_S32x3x262144_S32x3_d2 : S32x3x262144.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x262144_0_1_2 : S32x3x1.BroadcastsInDim S32x3x262144 (![0, 1, 2] : Fin 3 → Fin S32x3x262144.rank)
  bcast_S_S32x3x262144 : S_.BroadcastsInDim S32x3x262144 (![] : Fin 0 → Fin S32x3x262144.rank)
  bcast_S32_S32x1x1_0 : S32.BroadcastsInDim S32x1x1 (![0] : Fin 1 → Fin S32x1x1.rank)
  bcast_S3_S1x3x1_1 : S3.BroadcastsInDim S1x3x1 (![1] : Fin 1 → Fin S1x3x1.rank)
  bcast_S_S32x3x255 : S_.BroadcastsInDim S32x3x255 (![] : Fin 0 → Fin S32x3x255.rank)
  bcast_S_S32x1x1 : S_.BroadcastsInDim S32x1x1 (![] : Fin 0 → Fin S32x1x1.rank)
  bcast_S_S1x3x1 : S_.BroadcastsInDim S1x3x1 (![] : Fin 0 → Fin S1x3x1.rank)
  bcast_S32x1x1_S32x3x262144_0_1_2 : S32x1x1.BroadcastsInDim S32x3x262144 (![0, 1, 2] : Fin 3 → Fin S32x3x262144.rank)
  bcast_S1x3x1_S32x3x262144_0_1_2 : S1x3x1.BroadcastsInDim S32x3x262144 (![0, 1, 2] : Fin 3 → Fin S32x3x262144.rank)
  bcast_S32x3x262144_S32x3x262144x1_0_1_2 : S32x3x262144.BroadcastsInDim S32x3x262144x1 (![0, 1, 2] : Fin 3 → Fin S32x3x262144x1.rank)
  concatenates_S32x3x262144x1_S32x3x262144x1_S32x3x262144x1_S32x3x262144x3_d3 : Shape.Concatenates [S32x3x262144x1, S32x3x262144x1, S32x3x262144x1] S32x3x262144x3 3
  bcast_S_S3 : S_.BroadcastsInDim S3 (![] : Fin 0 → Fin S3.rank)
  bcast_S3_S3x1_0 : S3.BroadcastsInDim S3x1 (![0] : Fin 1 → Fin S3x1.rank)
  reducesTo_S32x3x255_S_d0_1_2 : S32x3x255.ReducesTo [0, 1, 2] S_
  scatter_S32x3x255_S32x3x262144x3_S32x3x262144_n_012_012_3_wf : ScatterDims.WF S32x3x255 S32x3x262144x3 S32x3x262144 [] [0, 1, 2] [0, 1, 2] 3
  gather_S32x3x255_S3x1_S32x3x255_02_1_n_n_1_1_321255_wf : GatherDims.WF S32x3x255 S3x1 S32x3x255 [0, 2] [1] [] [1] [] 1 ![32, 1, 255]

variable [Facts₀]

def scatter_S32x3x255_S32x3x262144x3_S32x3x262144_n_012_012_3 : ScatterDims S32x3x255 S32x3x262144x3 S32x3x262144 where
  updateWindowDims := []
  insertedWindowDims := [0, 1, 2]
  scatterDimsToOperandDims := [0, 1, 2]
  indexVectorDim := 3
  wf := scatter_S32x3x255_S32x3x262144x3_S32x3x262144_n_012_012_3_wf
def gather_S32x3x255_S3x1_S32x3x255_02_1_n_n_1_1_321255 : GatherDims S32x3x255 S3x1 S32x3x255 where
  offsetDims := [0, 2]
  collapsedSliceDims := [1]
  operandBatchingDims := []
  startIndicesBatchingDims := []
  startIndexMap := [1]
  indexVectorDim := 1
  sliceSizes := ![32, 1, 255]
  wf := gather_S32x3x255_S3x1_S32x3x255_02_1_n_n_1_1_321255_wf

class Facts : Prop extends Facts₀ where

variable [Facts]
-- ==== Proof.KernelRun.lean ====
/-
  The idealized kernel's run with its result named.

  The program is two kernel regions between stretches of host operations.  Every weakly fair execution terminates
  without a fault, and the final memory holds, at every buffer that outlives the regions, the contents obtained by
  folding the program's segments over the launch memory: the host operations' results, and for each region the arrays
  its write-backs leave.  Read at the result buffer and at the two arguments this is the run the value claim needs.
-/
import proofs.«169026_j56521769615944_2_alg».proof.Proof.Gen.KernelIdeal.Frame

set_option maxRecDepth 16384

noncomputable section

namespace Cert.KernelIdeal.Hist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold of the
    segments over the launch memory, and the arguments end as launched. -/
theorem run_result : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c)⟩)

end Cert.KernelIdeal.Hist

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.HistBlocks.lean ====
/-
  The histogram kernel's output holds real numbers.

  The second kernel adds, at every grid point, sixteen matrix products of two vectors of integers read as floats (the
  one-hot encodings of the two hexadecimal digits of a bin number) into its 48 x 256 output block, which it has set
  to zero at the first column tile of each row block.  Whatever the bin numbers are, an integer read as a float is a
  real number, a product of two such vectors into the zero accumulator is a matrix of finite sums of products of
  reals, and a sum of real numbers is real: so after every grid point every entry of the block is a real number, and
  so is every entry of the array the blocks are written back to.  Nothing here depends on the first kernel's
  minima and maxima, nor on the input.
-/
import proofs.«169026_j56521769615944_2_alg».proof.Proof.Gen.KernelIdeal.Frame
import proofs.«169026_j56521769615944_2_alg».proof.Proof.LibRealValued
import Idealize.ShloMosaic.Lib.Pipeline.Value

set_option maxRecDepth 16384

noncomputable section

namespace Cert.KernelIdeal.Hist

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.RealValued

/-! ## The body's arithmetic keeps real entries real -/

/-- The zero splat the output block is reset to. -/
theorem allReal_pay1 : AllReal (k1_pay1 (F := Ideal)) := by
  unfold k1_pay1; exact allReal_broadcast_zero

/-- The zero splat the sixteen products are accumulated from. -/
theorem allReal_pay2 : AllReal (k1_pay2 (F := Ideal)) := by
  unfold k1_pay2; exact allReal_broadcast_zero

/-- One trip of the inner loop: the carried 48 x 16 x 16 value plus the product, over the 128 columns of the chunk, of the
    two one-hot vectors.  Both factors are integers read as floats, whatever was loaded. -/
theorem allReal_pay3 (v3 v5 : Vec Ideal S48x1 .f32) (acc : FVec Ideal S48x16x16 .f32) (v24 : Vec Ideal S48x128 .f32)
    (h : AllReal acc) : AllReal (k1_pay3 (F := Ideal) v3 v5 acc v24) := by
  unfold k1_pay3
  exact allReal_addf h (allReal_matmul_zero _ _ (allReal_truncf _ (allReal_sitofp _)) (allReal_truncf _ (allReal_sitofp _)))

/-- The final store: the block as found plus the accumulated products, laid out as 48 x 256. -/
theorem allReal_pay4 (v15 : FVec Ideal S48x16x16 .f32) (v16 : Vec Ideal S48x256 .f32) (h15 : AllReal v15) (h16 : AllReal v16) :
    AllReal (k1_pay4 (F := Ideal) v15 v16) := by
  unfold k1_pay4
  exact allReal_addf (allReal_shapeCast _ h16) (allReal_shapeCast _ h15)

/-! ## The inner loop -/

/-- What one trip yields is the trip's arithmetic applied to the carried value and to the chunk it loads. -/
theorem trip_eq (𝒱 : Variants) (c : Dev nD) (bd : Option 𝒱.V) (i : grid1.Coords) (arg2 : Memref sig .tc .vmem S48x2048 .f32) (harg2 : arg2.IsWhole) (arg3 : Memref sig .tc .vmem S48x1 .f32) (harg3 : arg3.IsWhole) (arg4 : Memref sig .tc .vmem S48x1 .f32) (harg4 : arg4.IsWhole) (arg5 : Memref sig .tc .vmem S48x256 .f32) (harg5 : arg5.IsWhole) (v3 : Vec Ideal S48x1 .f32) (v5 : Vec Ideal S48x1 .f32) (X_arg2 : BufTy.Contents (Elt Ideal) arg2.view.ty) (k : Fin k1_t1_loop.trips) (acc : FVec Ideal S48x16x16 .f32) :
    ∃ v24, (trip_k1_t1 (F := Ideal) 𝒱 c bd i arg2 harg2 arg3 harg3 arg4 harg4 arg5 harg5 v3 v5 X_arg2 k).1 acc = k1_pay3 v3 v5 acc v24 := by
  unfold trip_k1_t1
  dsimp only
  exact ⟨_, rfl⟩

/-- The carried value before every trip is real-valued when the initial one is. -/
theorem allReal_st (𝒱 : Variants) (c : Dev nD) (bd : Option 𝒱.V) (i : grid1.Coords) (arg2 : Memref sig .tc .vmem S48x2048 .f32) (harg2 : arg2.IsWhole) (arg3 : Memref sig .tc .vmem S48x1 .f32) (harg3 : arg3.IsWhole) (arg4 : Memref sig .tc .vmem S48x1 .f32) (harg4 : arg4.IsWhole) (arg5 : Memref sig .tc .vmem S48x256 .f32) (harg5 : arg5.IsWhole) (v3 : Vec Ideal S48x1 .f32) (v5 : Vec Ideal S48x1 .f32) (X_arg2 : BufTy.Contents (Elt Ideal) arg2.view.ty) (init : FVec Ideal S48x16x16 .f32) (hinit : AllReal init) :
    ∀ k : ℕ, AllReal (st_k1_t1 (F := Ideal) 𝒱 c bd i arg2 harg2 arg3 harg3 arg4 harg4 arg5 harg5 v3 v5 X_arg2 init k)
  | 0 => hinit
  | k + 1 => by
    rw [st_k1_t1.eq_2]
    unfold st_k1_t1Step
    split
    · rename_i hk
      obtain ⟨v24, e⟩ := trip_eq 𝒱 c bd i arg2 harg2 arg3 harg3 arg4 harg4 arg5 harg5 v3 v5 X_arg2 ⟨k, hk⟩
        (st_k1_t1 (F := Ideal) 𝒱 c bd i arg2 harg2 arg3 harg3 arg4 harg4 arg5 harg5 v3 v5 X_arg2 init k)
      show AllReal ((trip_k1_t1 (F := Ideal) 𝒱 c bd i arg2 harg2 arg3 harg3 arg4 harg4 arg5 harg5 v3 v5 X_arg2 ⟨k, hk⟩).1
        (st_k1_t1 (F := Ideal) 𝒱 c bd i arg2 harg2 arg3 harg3 arg4 harg4 arg5 harg5 v3 v5 X_arg2 init k))
      rw [e]
      exact allReal_pay3 _ _ _ _ (allReal_st 𝒱 c bd i arg2 harg2 arg3 harg3 arg4 harg4 arg5 harg5 v3 v5 X_arg2 init hinit k)
    · exact allReal_st 𝒱 c bd i arg2 harg2 arg3 harg3 arg4 harg4 arg5 harg5 v3 v5 X_arg2 init hinit k

/-! ## What each grid point leaves in the output block -/

theorem zero2 : (![0, 0] : Fin S48x256.rank → ℕ) = fun _ => 0 := by
  funext a; fin_cases a <;> rfl

/-- At the first column tile of a row block the body resets the block, runs the loop, and stores the zero block plus
    the accumulated products. -/
theorem allReal_out1_A (c : Dev nD) (i : grid1.Coords) (arg2 : Memref sig .tc .vmem S48x2048 .f32) (harg2 : arg2.IsWhole) (arg3 : Memref sig .tc .vmem S48x1 .f32) (harg3 : arg3.IsWhole) (arg4 : Memref sig .tc .vmem S48x1 .f32) (harg4 : arg4.IsWhole) (arg5 : Memref sig .tc .vmem S48x256 .f32) (harg5 : arg5.IsWhole) (hc0 : cond1_0 i)
    (x0 : Vec Ideal S48x2048 .f32) (x1 : Vec Ideal S48x1 .f32) (x2 : Vec Ideal S48x1 .f32) :
    AllReal (out1_A_3 (F := Ideal) c i arg2 harg2 arg3 harg3 arg4 harg4 arg5 harg5 hc0 x0 x1 x2) := by
  unfold out1_A_3
  rw [View.read_writes_eq_canon _ _ _ (cover1_A_3 c i arg2 harg2 arg3 harg3 arg4 harg4 arg5 harg5 hc0 x0 x1 x2)]
  unfold kernelRun1_A
  dsimp only
  sl_unfold_words
  rw [View.canon_cons_unit_zero zero2]
  refine allReal_pay4 _ _ (allReal_st _ _ _ _ _ _ _ _ _ _ _ _ _ _ _ _ allReal_pay2 _) ?_
  rw [View.readCov_unit_zero _ zero2]
  exact allReal_pay1

/-- At every other column tile the body runs the loop and stores the block as found plus the accumulated products. -/
theorem allReal_out1_B (c : Dev nD) (i : grid1.Coords) (arg2 : Memref sig .tc .vmem S48x2048 .f32) (harg2 : arg2.IsWhole) (arg3 : Memref sig .tc .vmem S48x1 .f32) (harg3 : arg3.IsWhole) (arg4 : Memref sig .tc .vmem S48x1 .f32) (harg4 : arg4.IsWhole) (arg5 : Memref sig .tc .vmem S48x256 .f32) (harg5 : arg5.IsWhole) (hc0 : ¬cond1_0 i)
    (x0 : Vec Ideal S48x2048 .f32) (x1 : Vec Ideal S48x1 .f32) (x2 : Vec Ideal S48x1 .f32) (xo3 : Vec Ideal S48x256 .f32) (hxo3 : AllReal xo3) :
    AllReal (out1_B_3 (F := Ideal) c i arg2 harg2 arg3 harg3 arg4 harg4 arg5 harg5 hc0 x0 x1 x2 xo3) := by
  unfold out1_B_3
  rw [View.read_writes_eq_canon _ _ _ (cover1_B_3 c i arg2 harg2 arg3 harg3 arg4 harg4 arg5 harg5 hc0 x0 x1 x2 xo3)]
  unfold kernelRun1_B
  dsimp only
  sl_unfold_words
  rw [View.canon_unit_zero zero2]
  refine allReal_pay4 _ _ (allReal_st _ _ _ _ _ _ _ _ _ _ _ _ _ _ _ _ allReal_pay2 _) ?_
  simp only [View.readAt_eq_ld, harg5.read_unread, View.ld_unit_zero (S := S48x256) zero2]
  exact hxo3

end Cert.KernelIdeal.Hist

end
-- ==== Proof.HistArray.lean ====
/-
  The histogram array, and the program's result.

  The output window of the second kernel has blocks of 48 rows and all 256 columns; the block of row block q is
  written back once, at the last column tile of that row block (grid point 128 q + 127), and the two row blocks fill
  the 96 x 256 array.  Every element written back is an entry of what that grid point left in the block, a real number;
  so every entry of the array after the region is a real number.  The host operations after the region keep the first
  255 columns, regroup the rows as 32 x 3, permute the three channels, and return the mean of |h - h|: zero.
-/
import proofs.«169026_j56521769615944_2_alg».proof.Proof.HistBlocks

set_option maxRecDepth 16384

noncomputable section

namespace Cert.KernelIdeal.Hist

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.RealValued

section Region
variable (V : (c : Dev nD) → (b : Ref sig .tc) → Buf (Elt Ideal) ((c : Thread nD τ).loc b))

/-- After every grid point the output block holds real numbers: at the first column tile of a row block by the reset,
    at every other one from the point before. -/
theorem allReal_outsAt1 (c : Dev nD) :
    ∀ (n : ℕ) (t : Fin cfg1.N), t.val = n → AllReal (outsAt1 (F := Ideal) V c t.val t.isLt)
  | 0, t, ht => by
    have h0 : t.val % 128 = 0 := by rw [ht]
    rw [outsAt1_A V c t h0]
    exact allReal_out1_A c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t)
  | n + 1, t, ht => by
    by_cases h0 : t.val % 128 = 0
    · rw [outsAt1_A V c t h0]
      exact allReal_out1_A c (grid1.coords t) (ms1_0 t) (hs1_0 t) (ms1_1 t) (hs1_1 t) (ms1_2 t) (hs1_2 t) (ms1_3 t) (hs1_3 t)
        ((hcond1_0 t).mpr h0) (iblk1 V c 0 t) (iblk1 V c 1 t) (iblk1 V c 2 t)
    · rw [outsAt1_B V c t h0]
      exact allReal_out1_B c (grid1.coords t) (ms1_0 t) (hs1_0 t) (ms1_1 t) (hs1_1 t) (ms1_2 t) (hs1_2 t) (ms1_3 t) (hs1_3 t)
        (fun h => h0 ((hcond1_0 t).mp h)) (iblk1 V c 0 t) (iblk1 V c 1 t) (iblk1 V c 2 t)
        (outsAt1 V c (t.val - 1) (Nat.lt_of_le_of_lt (Nat.sub_le _ _) t.isLt))
        (allReal_outsAt1 c n ⟨t.val - 1, Nat.lt_of_le_of_lt (Nat.sub_le _ _) t.isLt⟩ (by show t.val - 1 = n; omega))

/-- The output window's block index at a grid point: the row block is the point's quotient by the 128 column tiles, the
    column block is 0. -/
theorem index_out : ∀ t : Fin cfg1.N, win1_3.index t (0 : Fin 2) = t.val / 128 ∧ win1_3.index t (1 : Fin 2) = 0 :=
  (by decide +kernel : ∀ t : Fin grid1.N, win1_3.index t (0 : Fin 2) = t.val / 128 ∧ win1_3.index t (1 : Fin 2) = 0)

/-- An index of the array is in a point's block iff each coordinate is in the block's range on its axis. -/
theorem mem_block (t : Fin cfg1.N) (i : S96x256.Idx) :
    i ∈ ((cfg1.win 3).blk t).view.set ↔ ∀ a : Fin 2, win1_3.index t a * S48x256.size a ≤ (i a).val ∧ (i a).val < win1_3.index t a * S48x256.size a + S48x256.size a := by
  show i ∈ ((View.whole main_v2).slice (win1_3.rect t)).set ↔ _
  rw [View.set_slice_whole, Rect.mem_set_unit]
  exact Iff.rfl

/-- Every index of the array is in the block some point writes back: row r is in row block r / 48, written back at
    the last column tile. -/
theorem covered (i : S96x256.Idx) : ∃ t : Fin cfg1.N, (cfg1.win 3).flush t = true ∧ i ∈ ((cfg1.win 3).blk t).view.set := by
  have hi0 : (i 0).val < 96 := (i 0).isLt
  have hi1 : (i 1).val < 256 := (i 1).isLt
  have hN : grid1.N = 256 := N_1
  have hlt : (i 0).val / 48 * 128 + 127 < cfg1.N := by show _ < grid1.N; omega
  refine ⟨⟨(i 0).val / 48 * 128 + 127, hlt⟩, (flush1_3 _).mpr (by show ((i 0).val / 48 * 128 + 127) % 128 = 127; omega), ?_⟩
  rw [mem_block]
  obtain ⟨e0, e1⟩ := index_out ⟨(i 0).val / 48 * 128 + 127, hlt⟩
  have e0' : win1_3.index ⟨(i 0).val / 48 * 128 + 127, hlt⟩ (0 : Fin 2) = ((i 0).val / 48 * 128 + 127) / 128 := e0
  intro a
  match a with
  | ⟨0, _⟩ =>
    show win1_3.index ⟨(i 0).val / 48 * 128 + 127, hlt⟩ (0 : Fin 2) * 48 ≤ (i 0).val ∧ (i 0).val < win1_3.index ⟨(i 0).val / 48 * 128 + 127, hlt⟩ (0 : Fin 2) * 48 + 48
    omega
  | ⟨1, _⟩ =>
    show win1_3.index ⟨(i 0).val / 48 * 128 + 127, hlt⟩ (1 : Fin 2) * 256 ≤ (i 1).val ∧ (i 1).val < win1_3.index ⟨(i 0).val / 48 * 128 + 127, hlt⟩ (1 : Fin 2) * 256 + 256
    omega

/-- The histogram array after the region: every entry is a real number. -/
theorem isReal_hist (c : Dev nD) (i : S96x256.Idx) : IsReal ((dat1 (F := Ideal) V c).arrAt 3 cfg1.N i) :=
  (dat1 (F := Ideal) V c).arrAt_forall_of_cover 3 (fun _ x => IsReal x)
    (fun t hf y => by
      have h := allReal_outsAt1 V c t.val t rfl
      show IsReal ((cfg1.win 3).cut (grid1.coords t) ((dat1 (F := Ideal) V c).after 3 t) y)
      rw [after1_3]
      exact h _)
    (covered) i

end Region

end Cert.KernelIdeal.Hist

end
-- ==== Proof.KernelValue.lean ====
/-
  The idealized kernel's result is zero.

  After the second region the host keeps the first 255 columns of the histogram array, regroups its 96 rows as
  32 x 3, reorders the three channels by a gather with constant indices, and returns the sum of |h - h| over all
  entries divided by 24480.  Slicing, regrouping and gathering only move entries, so h has real entries because the
  histogram array has; then every difference is 0 and so is the mean.
-/
import proofs.«169026_j56521769615944_2_alg».proof.Proof.HistArray
import Idealize.ShloMosaic.Lib.StableHlo.Run

set_option maxRecDepth 16384

noncomputable section

namespace Cert.KernelIdeal.Hist

open Idealize.ShloMosaic Idealize.ShloMosaic.TcCoe Idealize.ShloMosaic.Tactic
open Idealize.SL Idealize.SL.Sem
open Cert.KernelIdeal Cert.KernelIdeal.Gen Cert.RealValued

variable (m : (ℓ : Loc nD τ sig) → Buf (Elt Ideal) ℓ) (ρ : Dev nD → PrngReg)

/-- The histogram array as the host operations after the second region find it: what the region's write-backs leave. -/
theorem allReal_hist_array (c : Dev nD) : AllReal (S := S96x256) (W3 (F := Ideal) m ρ c (Proc.devRef .tc main_v2)) := fun i => by
  have e : W3 (F := Ideal) m ρ c (Proc.devRef .tc main_v2) = (dat1 (V2 m ρ) c).arrAt 3 cfg1.N := W3_arr m ρ c 3
  exact (congrArg IsReal (congrFun e i)).mpr (isReal_hist (V2 m ρ) c i)

/-- The program's result: the mean of |h - h| for a real-valued h. -/
theorem result_zero (c : Dev nD) : W4 (F := Ideal) m ρ c (Proc.devRef .tc main_v15) = fun _ => (0 : EReal) := by
  show StableHlo.after hostOps2 (W3 m ρ c) (Proc.devRef .tc main_v15) = _
  after_results
  refine mean_abs_sub_self _ (allReal_gather _ _ (fun i => ?_)) _ _ _ 24480 (by norm_num) ofBits_24480
  show IsReal (shapeCast S32x3x255 (extractStridedSlice S96x255 ![0, 0] (W3 (F := Ideal) m ρ c (Proc.devRef .tc main_v2)) slices_S96x256_S96x255_0_0) shapeCasts_S96x255_S32x3x255 i)
  exact allReal_shapeCast _ (allReal_extractStridedSlice _ _ (allReal_hist_array m ρ c)) i

end Cert.KernelIdeal.Hist

end
-- ==== Proof.RefRun.lean ====
/- The reference program's @main as a list of host operations, and its run read back: every weakly fair
   execution terminates with each buffer at the fold of the operations over the launch contents.
   The outlined functions' operations are listed inline at their call sites. -/
import proofs.«169026_j56521769615944_2_alg».proof.ReferenceIdeal
import Idealize.ShloMosaic.Lib.StableHlo.Run

noncomputable section

namespace Cert.ReferenceIdeal.RefHand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The first window's operations, in order; each call's operations inline over that call's buffer record. -/
abbrev opsA : List (HloOp τ sig (Elt F)) :=
  [ StableHlo.nullary main_c (fun i => lit0 (S3.rowMajor i)),
    StableHlo.nullary main_cst (constant S_ .f32 0x437F0000#32),
    StableHlo.unary main_cst main_v0 (broadcastInDim S32x3x512x512 ![] bcast_S_S32x3x512x512 : (⟨S_, .f32⟩ : BufTy).Contents (Elt F) → (⟨S32x3x512x512, .f32⟩ : BufTy).Contents (Elt F)),
    StableHlo.binary main_arg0 main_v0 main_v1 (mulf : (⟨S32x3x512x512, .f32⟩ : BufTy).Contents (Elt F) → (⟨S32x3x512x512, .f32⟩ : BufTy).Contents (Elt F) → (⟨S32x3x512x512, .f32⟩ : BufTy).Contents (Elt F)),
    StableHlo.TRef.unary (.of main_v1 : StableHlo.TRef sig ⟨S32x3x512x512, .f32⟩) main_call0.v0 Host.roundeven,
    StableHlo.reshape main_v2 main_v3 rfl shapeCasts_S32x3x512x512_S32x3x262144,
    StableHlo.nullary main_cst_0 (constant S_ .f32 0x7F800000#32),
    StableHlo.binary main_v3 main_cst_0 main_v4 ((fun x v => Host.reduce FloatOps.minimumf x v reducesTo_S32x3x262144_S32x3_d2 h_S_) : (⟨S32x3x262144, .f32⟩ : BufTy).Contents (Elt F) → (⟨S_, .f32⟩ : BufTy).Contents (Elt F) → (⟨S32x3, .f32⟩ : BufTy).Contents (Elt F)),
    StableHlo.unary main_v4 main_v5 (broadcastInDim S32x3x1 ![0, 1] bcast_S32x3_S32x3x1_0_1 : (⟨S32x3, .f32⟩ : BufTy).Contents (Elt F) → (⟨S32x3x1, .f32⟩ : BufTy).Contents (Elt F)),
    StableHlo.nullary main_cst_1 (constant S_ .f32 0xFF800000#32),
    StableHlo.binary main_v3 main_cst_1 main_v6 ((fun x v => Host.reduce FloatOps.maximumf x v reducesTo_S32x3x262144_S32x3_d2 h_S_) : (⟨S32x3x262144, .f32⟩ : BufTy).Contents (Elt F) → (⟨S_, .f32⟩ : BufTy).Contents (Elt F) → (⟨S32x3, .f32⟩ : BufTy).Contents (Elt F)),
    StableHlo.unary main_v6 main_v7 (broadcastInDim S32x3x1 ![0, 1] bcast_S32x3_S32x3x1_0_1 : (⟨S32x3, .f32⟩ : BufTy).Contents (Elt F) → (⟨S32x3x1, .f32⟩ : BufTy).Contents (Elt F)),
    StableHlo.binary main_v7 main_v5 main_v8 (cmpf .ogt : (⟨S32x3x1, .f32⟩ : BufTy).Contents (Elt F) → (⟨S32x3x1, .f32⟩ : BufTy).Contents (Elt F) → (⟨S32x3x1, .i1⟩ : BufTy).Contents (Elt F)),
    StableHlo.binary main_v7 main_v5 main_v9 (subf : (⟨S32x3x1, .f32⟩ : BufTy).Contents (Elt F) → (⟨S32x3x1, .f32⟩ : BufTy).Contents (Elt F) → (⟨S32x3x1, .f32⟩ : BufTy).Contents (Elt F)),
    StableHlo.nullary main_cst_2 (constant S_ .f32 0x3F800000#32),
    StableHlo.unary main_cst_2 main_v10 (broadcastInDim S32x3x1 ![] bcast_S_S32x3x1 : (⟨S_, .f32⟩ : BufTy).Contents (Elt F) → (⟨S32x3x1, .f32⟩ : BufTy).Contents (Elt F)),
    StableHlo.TRef.ternary (.of main_v8 : StableHlo.TRef sig ⟨S32x3x1, .i1⟩) (.of main_v9 : StableHlo.TRef sig ⟨S32x3x1, .f32⟩) (.of main_v10 : StableHlo.TRef sig ⟨S32x3x1, .f32⟩) main_call1.v0 select,
    StableHlo.unary main_v5 main_v12 (broadcastInDim S32x3x262144 ![0, 1, 2] bcast_S32x3x1_S32x3x262144_0_1_2 : (⟨S32x3x1, .f32⟩ : BufTy).Contents (Elt F) → (⟨S32x3x262144, .f32⟩ : BufTy).Contents (Elt F)),
    StableHlo.binary main_v3 main_v12 main_v13 (subf : (⟨S32x3x262144, .f32⟩ : BufTy).Contents (Elt F) → (⟨S32x3x262144, .f32⟩ : BufTy).Contents (Elt F) → (⟨S32x3x262144, .f32⟩ : BufTy).Contents (Elt F)),
    StableHlo.unary main_v11 main_v14 (broadcastInDim S32x3x262144 ![0, 1, 2] bcast_S32x3x1_S32x3x262144_0_1_2 : (⟨S32x3x1, .f32⟩ : BufTy).Contents (Elt F) → (⟨S32x3x262144, .f32⟩ : BufTy).Contents (Elt F)),
    StableHlo.binary main_v13 main_v14 main_v15 (Host.divf : (⟨S32x3x262144, .f32⟩ : BufTy).Contents (Elt F) → (⟨S32x3x262144, .f32⟩ : BufTy).Contents (Elt F) → (⟨S32x3x262144, .f32⟩ : BufTy).Contents (Elt F)),
    StableHlo.nullary main_cst_3 (constant S_ .f32 0x437F0000#32),
    StableHlo.unary main_cst_3 main_v16 (broadcastInDim S32x3x262144 ![] bcast_S_S32x3x262144 : (⟨S_, .f32⟩ : BufTy).Contents (Elt F) → (⟨S32x3x262144, .f32⟩ : BufTy).Contents (Elt F)),
    StableHlo.binary main_v15 main_v16 main_v17 (mulf : (⟨S32x3x262144, .f32⟩ : BufTy).Contents (Elt F) → (⟨S32x3x262144, .f32⟩ : BufTy).Contents (Elt F) → (⟨S32x3x262144, .f32⟩ : BufTy).Contents (Elt F)),
    StableHlo.unary main_v17 main_v18 (Host.floor : (⟨S32x3x262144, .f32⟩ : BufTy).Contents (Elt F) → (⟨S32x3x262144, .f32⟩ : BufTy).Contents (Elt F)),
    StableHlo.nullary main_c_4 (constantI S_ 32 0#32),
    StableHlo.nullary main_c_5 (constantI S_ 32 254#32),
    StableHlo.TRef.unary (.of main_c_4 : StableHlo.TRef sig ⟨S_, .i32⟩) main_call2.v0 (sitofp .f32),
    StableHlo.TRef.unary main_call2.v0 main_call2.v1 (broadcastInDim S32x3x262144 ![] bcast_S_S32x3x262144),
    StableHlo.TRef.binary main_call2.v1 (.of main_v18 : StableHlo.TRef sig ⟨S32x3x262144, .f32⟩) main_call2.v2 maximumf,
    StableHlo.TRef.unary (.of main_c_5 : StableHlo.TRef sig ⟨S_, .i32⟩) main_call2.v3 (sitofp .f32),
    StableHlo.TRef.unary main_call2.v3 main_call2.v4 (broadcastInDim S32x3x262144 ![] bcast_S_S32x3x262144),
    StableHlo.TRef.binary main_call2.v4 main_call2.v2 main_call2.v5 minimumf,
    StableHlo.unary main_v19 main_v20 (fptosi 32 : (⟨S32x3x262144, .f32⟩ : BufTy).Contents (Elt F) → (⟨S32x3x262144, .i32⟩ : BufTy).Contents (Elt F)),
    StableHlo.nullary main_v21 (iotaInDim S32 32 0),
    StableHlo.unary main_v21 main_v22 (broadcastInDim S32x1x1 ![0] bcast_S32_S32x1x1_0 : (⟨S32, .i32⟩ : BufTy).Contents (Elt F) → (⟨S32x1x1, .i32⟩ : BufTy).Contents (Elt F)),
    StableHlo.nullary main_v23 (iotaInDim S3 32 0),
    StableHlo.unary main_v23 main_v24 (broadcastInDim S1x3x1 ![1] bcast_S3_S1x3x1_1 : (⟨S3, .i32⟩ : BufTy).Contents (Elt F) → (⟨S1x3x1, .i32⟩ : BufTy).Contents (Elt F)),
    StableHlo.nullary main_cst_6 (constant S_ .f32 0x00000000#32),
    StableHlo.unary main_cst_6 main_v25 (broadcastInDim S32x3x255 ![] bcast_S_S32x3x255 : (⟨S_, .f32⟩ : BufTy).Contents (Elt F) → (⟨S32x3x255, .f32⟩ : BufTy).Contents (Elt F)),
    StableHlo.nullary main_c_7 (constantI S_ 32 0#32),
    StableHlo.unary main_c_7 main_v26 (broadcastInDim S32x1x1 ![] bcast_S_S32x1x1 : (⟨S_, .i32⟩ : BufTy).Contents (Elt F) → (⟨S32x1x1, .i32⟩ : BufTy).Contents (Elt F)),
    StableHlo.binary main_v22 main_v26 main_v27 (cmpi .slt : (⟨S32x1x1, .i32⟩ : BufTy).Contents (Elt F) → (⟨S32x1x1, .i32⟩ : BufTy).Contents (Elt F) → (⟨S32x1x1, .i1⟩ : BufTy).Contents (Elt F)),
    StableHlo.nullary main_c_8 (constantI S_ 32 32#32),
    StableHlo.unary main_c_8 main_v28 (broadcastInDim S32x1x1 ![] bcast_S_S32x1x1 : (⟨S_, .i32⟩ : BufTy).Contents (Elt F) → (⟨S32x1x1, .i32⟩ : BufTy).Contents (Elt F)),
    StableHlo.binary main_v22 main_v28 main_v29 (addi : (⟨S32x1x1, .i32⟩ : BufTy).Contents (Elt F) → (⟨S32x1x1, .i32⟩ : BufTy).Contents (Elt F) → (⟨S32x1x1, .i32⟩ : BufTy).Contents (Elt F)),
    StableHlo.ternary main_v27 main_v29 main_v22 main_v30 (select : (⟨S32x1x1, .i1⟩ : BufTy).Contents (Elt F) → (⟨S32x1x1, .i32⟩ : BufTy).Contents (Elt F) → (⟨S32x1x1, .i32⟩ : BufTy).Contents (Elt F) → (⟨S32x1x1, .i32⟩ : BufTy).Contents (Elt F)),
    StableHlo.nullary main_c_9 (constantI S_ 32 0#32),
    StableHlo.unary main_c_9 main_v31 (broadcastInDim S1x3x1 ![] bcast_S_S1x3x1 : (⟨S_, .i32⟩ : BufTy).Contents (Elt F) → (⟨S1x3x1, .i32⟩ : BufTy).Contents (Elt F)),
    StableHlo.binary main_v24 main_v31 main_v32 (cmpi .slt : (⟨S1x3x1, .i32⟩ : BufTy).Contents (Elt F) → (⟨S1x3x1, .i32⟩ : BufTy).Contents (Elt F) → (⟨S1x3x1, .i1⟩ : BufTy).Contents (Elt F)),
    StableHlo.nullary main_c_10 (constantI S_ 32 3#32),
    StableHlo.unary main_c_10 main_v33 (broadcastInDim S1x3x1 ![] bcast_S_S1x3x1 : (⟨S_, .i32⟩ : BufTy).Contents (Elt F) → (⟨S1x3x1, .i32⟩ : BufTy).Contents (Elt F)),
    StableHlo.binary main_v24 main_v33 main_v34 (addi : (⟨S1x3x1, .i32⟩ : BufTy).Contents (Elt F) → (⟨S1x3x1, .i32⟩ : BufTy).Contents (Elt F) → (⟨S1x3x1, .i32⟩ : BufTy).Contents (Elt F)),
    StableHlo.ternary main_v32 main_v34 main_v24 main_v35 (select : (⟨S1x3x1, .i1⟩ : BufTy).Contents (Elt F) → (⟨S1x3x1, .i32⟩ : BufTy).Contents (Elt F) → (⟨S1x3x1, .i32⟩ : BufTy).Contents (Elt F) → (⟨S1x3x1, .i32⟩ : BufTy).Contents (Elt F)),
    StableHlo.nullary main_c_11 (constantI S_ 32 0#32),
    StableHlo.unary main_c_11 main_v36 (broadcastInDim S32x3x262144 ![] bcast_S_S32x3x262144 : (⟨S_, .i32⟩ : BufTy).Contents (Elt F) → (⟨S32x3x262144, .i32⟩ : BufTy).Contents (Elt F)),
    StableHlo.binary main_v20 main_v36 main_v37 (cmpi .slt : (⟨S32x3x262144, .i32⟩ : BufTy).Contents (Elt F) → (⟨S32x3x262144, .i32⟩ : BufTy).Contents (Elt F) → (⟨S32x3x262144, .i1⟩ : BufTy).Contents (Elt F)),
    StableHlo.nullary main_c_12 (constantI S_ 32 255#32),
    StableHlo.unary main_c_12 main_v38 (broadcastInDim S32x3x262144 ![] bcast_S_S32x3x262144 : (⟨S_, .i32⟩ : BufTy).Contents (Elt F) → (⟨S32x3x262144, .i32⟩ : BufTy).Contents (Elt F)),
    StableHlo.binary main_v20 main_v38 main_v39 (addi : (⟨S32x3x262144, .i32⟩ : BufTy).Contents (Elt F) → (⟨S32x3x262144, .i32⟩ : BufTy).Contents (Elt F) → (⟨S32x3x262144, .i32⟩ : BufTy).Contents (Elt F)),
    StableHlo.ternary main_v37 main_v39 main_v20 main_v40 (select : (⟨S32x3x262144, .i1⟩ : BufTy).Contents (Elt F) → (⟨S32x3x262144, .i32⟩ : BufTy).Contents (Elt F) → (⟨S32x3x262144, .i32⟩ : BufTy).Contents (Elt F) → (⟨S32x3x262144, .i32⟩ : BufTy).Contents (Elt F)),
    StableHlo.unary main_v30 main_v41 (broadcastInDim S32x3x262144 ![0, 1, 2] bcast_S32x1x1_S32x3x262144_0_1_2 : (⟨S32x1x1, .i32⟩ : BufTy).Contents (Elt F) → (⟨S32x3x262144, .i32⟩ : BufTy).Contents (Elt F)),
    StableHlo.unary main_v35 main_v42 (broadcastInDim S32x3x262144 ![0, 1, 2] bcast_S1x3x1_S32x3x262144_0_1_2 : (⟨S1x3x1, .i32⟩ : BufTy).Contents (Elt F) → (⟨S32x3x262144, .i32⟩ : BufTy).Contents (Elt F)),
    StableHlo.unary main_v41 main_v43 (broadcastInDim S32x3x262144x1 ![0, 1, 2] bcast_S32x3x262144_S32x3x262144x1_0_1_2 : (⟨S32x3x262144, .i32⟩ : BufTy).Contents (Elt F) → (⟨S32x3x262144x1, .i32⟩ : BufTy).Contents (Elt F)),
    StableHlo.unary main_v42 main_v44 (broadcastInDim S32x3x262144x1 ![0, 1, 2] bcast_S32x3x262144_S32x3x262144x1_0_1_2 : (⟨S32x3x262144, .i32⟩ : BufTy).Contents (Elt F) → (⟨S32x3x262144x1, .i32⟩ : BufTy).Contents (Elt F)) ]

/-- The second window's operations, in order. -/
abbrev opsB : List (HloOp τ sig (Elt F)) :=
  [ StableHlo.unary main_v40 main_v45 (broadcastInDim S32x3x262144x1 ![0, 1, 2] bcast_S32x3x262144_S32x3x262144x1_0_1_2 : (⟨S32x3x262144, .i32⟩ : BufTy).Contents (Elt F) → (⟨S32x3x262144x1, .i32⟩ : BufTy).Contents (Elt F)),
    StableHlo.nary ![main_v43, main_v44, main_v45] main_v46 (fun u => concatenate S32x3x262144x3 3 [⟨S32x3x262144x1, u 0⟩, ⟨S32x3x262144x1, u 1⟩, ⟨S32x3x262144x1, u 2⟩] concatenates_S32x3x262144x1_S32x3x262144x1_S32x3x262144x1_S32x3x262144x3_d3),
    StableHlo.nullary main_cst_13 (constant S_ .f32 0x3F800000#32),
    StableHlo.unary main_cst_13 main_v47 (broadcastInDim S32x3x262144 ![] bcast_S_S32x3x262144 : (⟨S_, .f32⟩ : BufTy).Contents (Elt F) → (⟨S32x3x262144, .f32⟩ : BufTy).Contents (Elt F)),
    StableHlo.ternary main_v25 main_v46 main_v47 main_v48 ((fun x i u => Host.scatterAdd scatter_S32x3x255_S32x3x262144x3_S32x3x262144_n_012_012_3 x i u) : (⟨S32x3x255, .f32⟩ : BufTy).Contents (Elt F) → (⟨S32x3x262144x3, .i32⟩ : BufTy).Contents (Elt F) → (⟨S32x3x262144, .f32⟩ : BufTy).Contents (Elt F) → (⟨S32x3x255, .f32⟩ : BufTy).Contents (Elt F)),
    StableHlo.nullary main_c_14 (constantI S_ 32 0#32),
    StableHlo.unary main_c_14 main_v49 (broadcastInDim S3 ![] bcast_S_S3 : (⟨S_, .i32⟩ : BufTy).Contents (Elt F) → (⟨S3, .i32⟩ : BufTy).Contents (Elt F)),
    StableHlo.binary main_c main_v49 main_v50 (cmpi .slt : (⟨S3, .i32⟩ : BufTy).Contents (Elt F) → (⟨S3, .i32⟩ : BufTy).Contents (Elt F) → (⟨S3, .i1⟩ : BufTy).Contents (Elt F)),
    StableHlo.nullary main_c_15 (constantI S_ 32 3#32),
    StableHlo.unary main_c_15 main_v51 (broadcastInDim S3 ![] bcast_S_S3 : (⟨S_, .i32⟩ : BufTy).Contents (Elt F) → (⟨S3, .i32⟩ : BufTy).Contents (Elt F)),
    StableHlo.binary main_c main_v51 main_v52 (addi : (⟨S3, .i32⟩ : BufTy).Contents (Elt F) → (⟨S3, .i32⟩ : BufTy).Contents (Elt F) → (⟨S3, .i32⟩ : BufTy).Contents (Elt F)),
    StableHlo.ternary main_v50 main_v52 main_c main_v53 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v53 main_v54 (broadcastInDim S3x1 ![0] bcast_S3_S3x1_0 : (⟨S3, .i32⟩ : BufTy).Contents (Elt F) → (⟨S3x1, .i32⟩ : BufTy).Contents (Elt F)),
    StableHlo.binary main_v48 main_v54 main_v55 ((fun x i => Host.gather gather_S32x3x255_S3x1_S32x3x255_02_1_n_n_1_1_321255 x i) : (⟨S32x3x255, .f32⟩ : BufTy).Contents (Elt F) → (⟨S3x1, .i32⟩ : BufTy).Contents (Elt F) → (⟨S32x3x255, .f32⟩ : BufTy).Contents (Elt F)),
    StableHlo.binary main_v55 main_v55 main_v56 (subf : (⟨S32x3x255, .f32⟩ : BufTy).Contents (Elt F) → (⟨S32x3x255, .f32⟩ : BufTy).Contents (Elt F) → (⟨S32x3x255, .f32⟩ : BufTy).Contents (Elt F)),
    StableHlo.unary main_v56 main_v57 (Host.absf : (⟨S32x3x255, .f32⟩ : BufTy).Contents (Elt F) → (⟨S32x3x255, .f32⟩ : BufTy).Contents (Elt F)),
    StableHlo.nullary main_cst_16 (constant S_ .f32 0x00000000#32),
    StableHlo.binary main_v57 main_cst_16 main_v58 ((fun x v => Host.reduceAdd x v reducesTo_S32x3x255_S_d0_1_2 h_S_) : (⟨S32x3x255, .f32⟩ : BufTy).Contents (Elt F) → (⟨S_, .f32⟩ : BufTy).Contents (Elt F) → (⟨S_, .f32⟩ : BufTy).Contents (Elt F)),
    StableHlo.nullary main_cst_17 (constant S_ .f32 0x46BF4000#32),
    StableHlo.binary main_v58 main_cst_17 main_v59 (Host.divf : (⟨S_, .f32⟩ : BufTy).Contents (Elt F) → (⟨S_, .f32⟩ : BufTy).Contents (Elt F) → (⟨S_, .f32⟩ : BufTy).Contents (Elt F)) ]

/-- All of @main's operations, in order. -/
abbrev ops : List (HloOp τ sig (Elt F)) := opsA ++ opsB

set_option maxRecDepth 4096 in
set_option maxHeartbeats 4000000 in
/-- The first window is that straight line: the functions' definitions unfolded at their calls, both sides are one
    chain of steps once sequencing is reassociated. -/
theorem partA_eq (c : Dev nD) : main_part0 (F := F) c = seq opsA := by
  simp only [main_part0, fn_round.body, fn_where.body, fn_clip.body, seq, bind_assoc, pure_bind]
  rfl

theorem partB_eq (c : Dev nD) : main_part1 (F := F) c = seq opsB := rfl

theorem main_eq (c : Dev nD) : main (F := F) c = seq ops := by
  rw [show (ops : List (HloOp τ sig (Elt F))) = opsA ++ opsB from rfl, seq_append, ← partA_eq c, ← partB_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨StableHlo.nullary_bufs_sub .., StableHlo.nullary_bufs_sub .., StableHlo.unary_bufs_sub .., StableHlo.binary_bufs_sub ..,
    StableHlo.unary_bufs_sub .., StableHlo.reshape_bufs_sub .., StableHlo.nullary_bufs_sub .., StableHlo.binary_bufs_sub ..,
    StableHlo.unary_bufs_sub .., StableHlo.nullary_bufs_sub .., StableHlo.binary_bufs_sub .., StableHlo.unary_bufs_sub ..,
    StableHlo.binary_bufs_sub .., StableHlo.binary_bufs_sub .., StableHlo.nullary_bufs_sub .., StableHlo.unary_bufs_sub ..,
    StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.binary_bufs_sub ..,
    StableHlo.unary_bufs_sub .., StableHlo.nullary_bufs_sub .., StableHlo.nullary_bufs_sub .., StableHlo.unary_bufs_sub ..,
    StableHlo.unary_bufs_sub .., StableHlo.binary_bufs_sub .., StableHlo.unary_bufs_sub .., StableHlo.unary_bufs_sub ..,
    StableHlo.binary_bufs_sub .., StableHlo.unary_bufs_sub .., StableHlo.nullary_bufs_sub .., StableHlo.unary_bufs_sub ..,
    StableHlo.nullary_bufs_sub .., StableHlo.unary_bufs_sub .., StableHlo.nullary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.unary_bufs_sub .., StableHlo.unary_bufs_sub .., StableHlo.unary_bufs_sub ..,
    StableHlo.unary_bufs_sub ..⟩

theorem opsB_sub : (opsB : List (HloOp τ sig (Elt F))).Forall fun op => op.bufs ⊆ tcRefs τ sig :=
  ⟨StableHlo.unary_bufs_sub .., StableHlo.nary_bufs_sub .., StableHlo.nullary_bufs_sub .., StableHlo.unary_bufs_sub ..,
    StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub ..⟩

theorem ops_sub : (ops : List (HloOp τ sig (Elt F))).Forall fun op => op.bufs ⊆ tcRefs τ sig :=
  List.forall_append.mpr ⟨opsA_sub, opsB_sub⟩

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- On every device, for any float values, from any memory with zero counters: every weakly fair execution of
    @main terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefHand

end
-- ==== Proof.RefValue.lean ====
/- The value of the reference's run: its result is the constant 0.

   The result is the mean of |g - g| for g a gather of an accumulating scatter of all-ones updates into zeros.
   Every entry of the scatter is 0 plus a finite sum of ones, a real number, wherever the indices point; a
   gather only moves entries; and for a vector of real numbers the mean of |g - g| is 0. -/
import proofs.«169026_j56521769615944_2_alg».proof.Proof.RefRun
import proofs.«169026_j56521769615944_2_alg».proof.Proof.LibRealValued

noncomputable section

namespace Cert.ReferenceIdeal.RefHand

open Cert.ReferenceIdeal Idealize.ShloMosaic Idealize.ShloMosaic.TcCoe Idealize.SL.Sem Idealize.ShloMosaic.StableHlo
open Cert.ReferenceIdeal.Facts₀ Cert.ReferenceIdeal.Facts Cert.RealValued

variable [Cert.ReferenceIdeal.Facts]

/-- The word 0x3F800000 (1.0) denotes the real 1. -/
theorem ofBits_one : Ideal.ofBits .f32 0x3F800000#32 = ((1 : ℝ) : EReal) := by
  simp [Ideal.ofBits, Ideal.ieee, -EReal.coe_mul]; norm_num

/-- A broadcast only moves entries. -/
theorem allReal_broadcastInDim {S T : Shape} {φ : FTy} (dims : Fin S.rank → Fin T.rank) (h : S.BroadcastsInDim T dims)
    {x : FVec Ideal S φ} (hx : AllReal x) : AllReal (broadcastInDim T dims h x) :=
  fun _ => hx _

theorem allReal_constant_one {S : Shape} : AllReal (constant (F := Ideal) S .f32 0x3F800000#32) := fun _ => by
  show IsReal (Ideal.ofBits .f32 0x3F800000#32)
  rw [ofBits_one]; exact isReal_coe 1

/-- The host's accumulating scatter at the ideal values is the exact sum. -/
theorem allReal_hostScatterAdd {S si su : Shape} {φ : FTy} {w : Nat} (d : ScatterDims S si su) {x : FVec Ideal S φ} (idx : IVec si w)
    {upd : FVec Ideal su φ} (hx : AllReal x) (hu : AllReal upd) : AllReal (Host.scatterAdd (F := Ideal) d x idx upd) :=
  allReal_scatterAdd d idx hx hu

/-- After the first window the histogram's accumulator holds the splat of the zero word. -/
theorem v25_eq (V : Valuation τ sig (Elt Ideal)) :
    after (opsA (F := Ideal)) V (Proc.devRef (τ := τ) .tc main_v25)
      = broadcastInDim S32x3x255 ![] bcast_S_S32x3x255 (constant (F := Ideal) S_ .f32 0x00000000#32) := by
  after_results_simp

/-- The histogram as the run reads it: the gather, at indices `idx2`, of the accumulating scatter of all-ones updates
    into zeros at indices `idx`. -/
abbrev hist (idx : IVec S32x3x262144x3 32) (idx2 : IVec S3x1 32) : FVec Ideal S32x3x255 .f32 :=
  Host.gather gather_S32x3x255_S3x1_S32x3x255_02_1_n_n_1_1_321255
    (Host.scatterAdd (F := Ideal) scatter_S32x3x255_S32x3x262144x3_S32x3x262144_n_012_012_3
      (broadcastInDim S32x3x255 ![] bcast_S_S32x3x255 (constant (F := Ideal) S_ .f32 0x00000000#32)) idx
      (broadcastInDim S32x3x262144 ![] bcast_S_S32x3x262144 (constant (F := Ideal) S_ .f32 0x3F800000#32))) idx2

/-- Every entry of the histogram is a real number, wherever the indices point. -/
theorem allReal_hist (idx : IVec S32x3x262144x3 32) (idx2 : IVec S3x1 32) : AllReal (hist idx idx2) :=
  allReal_gather _ _ (allReal_hostScatterAdd _ _
    (allReal_broadcastInDim _ _ allReal_constant_zero) (allReal_broadcastInDim _ _ allReal_constant_one))

/-- The mean of |hist - hist| is 0. -/
theorem tail_zero (idx : IVec S32x3x262144x3 32) (idx2 : IVec S3x1 32) :
    Host.divf (F := Ideal)
        (Host.reduceAdd (F := Ideal) (Host.absf (F := Ideal) (subf (hist idx idx2) (hist idx idx2)))
          (constant (F := Ideal) S_ .f32 0x00000000#32) reducesTo_S32x3x255_S_d0_1_2 h_S_)
        (constant (F := Ideal) S_ .f32 0x46BF4000#32)
      = fun _ => ((0 : ℝ) : EReal) :=
  mean_abs_sub_self (hist idx idx2) (allReal_hist idx idx2) reducesTo_S32x3x255_S_d0_1_2 h_S_ 0x46BF4000#32 24480
    (by norm_num) ofBits_24480

set_option maxHeartbeats 1000000 in
/-- The run's result: the constant 0. The first window's fold is kept as one variable; the second window's
    fold at the result is the mean of |hist - hist| at whatever indices the first window computed. -/
theorem v59_eq (V : Valuation τ sig (Elt Ideal)) :
    after (ops (F := Ideal)) V (Proc.devRef (τ := τ) .tc main_v59) = fun _ => ((0 : ℝ) : EReal) := by
  rw [after_append]
  have h25 := v25_eq V
  generalize after (opsA (F := Ideal)) V = W at h25 ⊢
  after_results
  rw [h25]
  exact tail_zero _ _

/-- The arguments are written by no operation. -/
theorem arg0_eq (V : Valuation τ sig (Elt Ideal)) :
    after (ops (F := Ideal)) V (Proc.devRef (τ := τ) .tc main_arg0) = V (Proc.devRef .tc main_arg0) := by
  rw [after_append]
  after_results_simp

theorem arg1_eq (V : Valuation τ sig (Elt Ideal)) :
    after (ops (F := Ideal)) V (Proc.devRef (τ := τ) .tc main_arg1) = V (Proc.devRef .tc main_arg1) := by
  rw [after_append]
  after_results_simp

end Cert.ReferenceIdeal.RefHand

end
-- ==== Proof.RefZero.lean ====
/- The reference's run ends with the constant 0 at its result and the arguments unchanged. -/
import proofs.«169026_j56521769615944_2_alg».proof.Proof.RefValue

noncomputable section

namespace Cert.ReferenceIdeal.RefHand

open Cert.ReferenceIdeal Idealize.ShloMosaic Idealize.ShloMosaic.TcCoe Idealize.SL.Sem Idealize.ShloMosaic.StableHlo

variable [Cert.ReferenceIdeal.Facts]

/-- From any memory with zero counters, whatever the arguments hold: every weakly fair execution of @main
    terminates with the result the constant 0 and the arguments unchanged. -/
theorem run_zero (m : (l : Loc Cert.ReferenceIdeal.nD Cert.ReferenceIdeal.τ Cert.ReferenceIdeal.sig) → Buf (Elt Ideal) l) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread _ _).loc Cert.ReferenceIdeal.main_v59) = (fun _ => ((0 : ℝ) : EReal))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run defs _ _).mono (fun _ h c => ⟨(h c main_v59).trans (v59_eq _),
      (h c main_arg0).trans (arg0_eq _),
      (h c main_arg1).trans (arg1_eq _)⟩)
    (run m ρ)

end Cert.ReferenceIdeal.RefHand

end
-- ==== Proof.lean ====
/-
  A histogram compared with itself.

  Both programs compute, per image and colour channel, a 255-bin histogram of the rounded input, reorder the three
  channels, and return the mean of |h - h|, the histogram against itself.  On the extended reals x - x = 0 exactly when
  x is a real number, so each program returns 0 as soon as its own histogram has real entries, and the two results are
  equal without the two histograms ever being compared:
  - the kernel builds its histogram, in two regions of a pipeline, as sums of products of one-hot vectors of integers
    read as floats, accumulated from zero: real numbers whatever the bin numbers are (Proof/HistBlocks, HistArray,
    KernelValue, over the run of Proof/KernelRun);
  - the reference scatters ones into zeros with an accumulating scatter, the exact sum at the ideal values: real
    numbers wherever the indices point (Proof/RefRun, RefValue, RefZero).
  No precondition on the inputs is used.  The three frames are the kernels' generated ones and the reference's run with
  the result dropped; the idealization rewrote nothing, so its claim is trivial.
-/
import proofs.«169026_j56521769615944_2_alg».proof.Defs
import proofs.«169026_j56521769615944_2_alg».proof.Proof.Gen.Kernel
import proofs.«169026_j56521769615944_2_alg».proof.Proof.Gen.Kernel.Skeleton
import proofs.«169026_j56521769615944_2_alg».proof.Proof.Gen.Kernel.Loops
import proofs.«169026_j56521769615944_2_alg».proof.Proof.Gen.Kernel.Launch
import proofs.«169026_j56521769615944_2_alg».proof.Proof.Gen.Kernel.Points
import proofs.«169026_j56521769615944_2_alg».proof.Proof.Gen.Kernel.Frame
import proofs.«169026_j56521769615944_2_alg».proof.Proof.Gen.KernelIdeal
import proofs.«169026_j56521769615944_2_alg».proof.Proof.Gen.KernelIdeal.Skeleton
import proofs.«169026_j56521769615944_2_alg».proof.Proof.Gen.KernelIdeal.Loops
import proofs.«169026_j56521769615944_2_alg».proof.Proof.Gen.KernelIdeal.Launch
import proofs.«169026_j56521769615944_2_alg».proof.Proof.Gen.KernelIdeal.Points
import proofs.«169026_j56521769615944_2_alg».proof.Proof.Gen.KernelIdeal.Frame
import proofs.«169026_j56521769615944_2_alg».proof.Proof.Gen.ReferenceIdeal
import proofs.«169026_j56521769615944_2_alg».proof.Proof.Gen.Pre_finite_inputs
import proofs.«169026_j56521769615944_2_alg».proof.Proof.KernelRun
import proofs.«169026_j56521769615944_2_alg».proof.Proof.KernelValue
import proofs.«169026_j56521769615944_2_alg».proof.Proof.RefZero
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefHand.run_zero m ρ)

/-- Both programs end with the result 0 and their arguments unchanged. -/
theorem algebraic : Cert.algebraic_KernelIdeal_ReferenceIdeal := fun m ρ m' ρ' _ _ =>
  ⟨fun _ => fun _ => ((0 : ℝ) : EReal),
    (θ_run Cert.KernelIdeal.defs _ _).mono
      (fun _ h c => ⟨(h c).1.trans (Cert.KernelIdeal.Hist.result_zero m ρ c), (h c).2⟩)
      (Cert.KernelIdeal.Hist.run_result m ρ),
    Cert.ReferenceIdeal.RefHand.run_zero m' ρ'⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
